-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_arg5 : FVec F S64 .f32) (main_arg6 : FVec F S_ .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x1 : Shape := ⟨2, ![1, 1]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 85
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S1x1, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x1, .f32⟩
  | .local _ .vmem, ⟨9, _⟩ => ⟨S128x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x1, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S_S1x1 : S_.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S_, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S50000x128, .f32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .i1⟩
  | 70 => ⟨S50000x128, .f32⟩
  | 71 => ⟨S50000x128, .f32⟩
  | 72 => ⟨S50000x128, .f32⟩
  | 73 => ⟨S50000x64, .f32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x1, .f32⟩
  | 117 => ⟨S850000x64, .f32⟩
  | 118 => ⟨S850000x64, .f32⟩
  | 119 => ⟨S_, .f32⟩
  | 120 => ⟨S50000x64, .f32⟩
  | 121 => ⟨S850000x1, .i32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_1 (i : Nat) : BufTy := match i % 128 with
  | 0 => ⟨S50000x64, .i1⟩
  | 1 => ⟨S50000x64, .f32⟩
  | 2 => ⟨S50000x64, .f32⟩
  | 3 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_call2_v0 : Ref sig .tc := ⟨.hbm, 85, rfl⟩
abbrev main_call2_v1 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_c_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_18 : Ref sig .tc := ⟨.hbm, 107, rfl⟩
abbrev main_v76 : Ref sig .tc := ⟨.hbm, 108, rfl⟩
abbrev main_v77 : Ref sig .tc := ⟨.hbm, 109, rfl⟩
abbrev main_c_19 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel's run with its RESULT named. The program is three pallas_call regions among stretches of host
  operations; the contents of the TensorCore's buffers at each boundary are a fold through the program from the launch
  memory, and after the last region every unscoped buffer holds the last boundary's contents. Read at the result buffer,
  that is: every weakly fair execution terminates, nothing faults, the result buffer holds the last boundary's contents
  there (what region 2's write-backs leave), and the seven arguments are as launched.
-/
import proofs.«168347_j61607010893873_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's eight segments, the last thread state read against the final state, the
    result buffer at the last boundary's contents and each argument walked back to the launch memory. -/
theorem run_value : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KRun

end
-- ==== Proof.Layers.lean ====
/-
  The two activation stages of the network as functions of the AGGREGATED features, whatever array those are.
  One entry after the bias and the PReLU: with s the aggregated value, b the bias of its column and a the slope,
      pre s b a = (s + b) if s + b ≥ 0, and a · (s + b) otherwise.
  The kernels read the bias as a [1, n] row and the slope as a [1, 1] array; the reference broadcasts the rank-1 bias
  and the scalar slope to the full shape. Both are the same function of the aggregated array: the [1, n] row is the
  reshape of the rank-1 bias, the [1, 1] array the reshape of the scalar, and a reshape keeps the row-major position.
  The second linear layer is the host's dot_general of the activated array with the weights, read at an entry as the
  sum over the 128 contracted positions.
-/
import proofs.«168347_j61607010893873_1_alg».proof.Proof.RefRead
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.ReadP Idealize.ShloMosaic Idealize.ShloMosaic.TcCoe Idealize.SL.Sem

variable {F : FTy → Type} [FloatOps F]

/-- One entry after the bias and the PReLU. -/
def pre (s b a : F .f32) : F .f32 :=
  Scalar.select (FloatOps.cmpf .oge (FloatOps.addf s b) (FloatOps.ofBits .f32 0x00000000#32)) (FloatOps.addf s b)
    (FloatOps.mulf a (FloatOps.addf s b))

/-- The shape [1, 1] of the slope as the kernels read it (the reference itself has no array of this shape). -/
abbrev S1x1 : Shape := ⟨2, ![1, 1]⟩

/-- The one index of a [1, 1] array. -/
abbrev z00 : S1x1.Idx := fun a => match a with
  | ⟨0, _⟩ => ⟨0, Nat.one_pos⟩
  | ⟨1, _⟩ => ⟨0, Nat.one_pos⟩

/-- The first layer's activation of an aggregated [50000, 128] array, the bias a [1, 128] row, the slope a [1, 1] array. -/
def preact128 (agg : FVec F S50000x128 .f32) (b2d : FVec F S1x128 .f32) (a2d : FVec F S1x1 .f32) : FVec F S50000x128 .f32 :=
  fun i => pre (agg i) (b2d (idx_main_v45 i)) (a2d z00)

/-- The second layer's activation of an aggregated [50000, 64] array, the bias a [1, 64] row, the slope a [1, 1] array. -/
def preact64 (agg : FVec F S50000x64 .f32) (b2d : FVec F S1x64 .f32) (a2d : FVec F S1x1 .f32) : FVec F S50000x64 .f32 :=
  fun i => pre (agg i) (b2d (idx_main_v90 i)) (a2d z00)

/-- The reference's first activation (bias broadcast, compare with zero, slope broadcast, select) of an aggregated
    array is `preact128` of it with the reshaped bias and slope. -/
theorem act128_eq (agg : FVec F S50000x128 .f32) (b : FVec F S128 .f32) (a : FVec F S_ .f32)
    (hb : S128.ShapeCasts S1x128) (ha : S_.ShapeCasts S1x1) :
    select (cmpf .oge (addf agg (val_main_v45 (F := F) b)) (val_main_v47 (F := F))) (addf agg (val_main_v45 (F := F) b))
        (mulf (val_main_v49 (F := F) a) (addf agg (val_main_v45 (F := F) b)))
      = preact128 agg (shapeCast S1x128 b hb) (shapeCast S1x1 a ha) := by
  funext i
  show Scalar.select (FloatOps.cmpf .oge (FloatOps.addf (agg i) (val_main_v45 (F := F) b i)) (val_main_v47 (F := F) i))
      (FloatOps.addf (agg i) (val_main_v45 (F := F) b i))
      (FloatOps.mulf (val_main_v49 (F := F) a i) (FloatOps.addf (agg i) (val_main_v45 (F := F) b i)))
    = pre (agg i) (shapeCast S1x128 b hb (idx_main_v45 i)) (shapeCast S1x1 a ha z00)
  rw [val_main_v45_apply, val_main_v44_apply, val_main_v47_apply, val_main_cst_9_apply, val_main_v49_apply,
    shapeCast_apply b hb (idx_main_v45 i) (idx_main_v44 (idx_main_v45 i)) (by
      rw [Shape.rowMajor_val_two, Shape.rowMajor_val_one]
      show (i 1).val = 0 * 128 + (i 1).val
      omega),
    shapeCast_apply a ha z00 (idx_main_v49 i) (by
      rw [Shape.rowMajor_val_two]
      show ((S_ : Shape).rowMajor (idx_main_v49 i)).val = 0 * 1 + 0
      have := ((S_ : Shape).rowMajor (idx_main_v49 i)).isLt
      have h1 : (S_ : Shape).numel = 1 := by decide
      omega)]
  rfl

/-- The same for the second activation. -/
theorem act64_eq (agg : FVec F S50000x64 .f32) (b : FVec F S64 .f32) (a : FVec F S_ .f32)
    (hb : S64.ShapeCasts S1x64) (ha : S_.ShapeCasts S1x1) :
    select (cmpf .oge (addf agg (val_main_v90 (F := F) b)) (val_main_v92 (F := F))) (addf agg (val_main_v90 (F := F) b))
        (mulf (val_main_v94 (F := F) a) (addf agg (val_main_v90 (F := F) b)))
      = preact64 agg (shapeCast S1x64 b hb) (shapeCast S1x1 a ha) := by
  funext i
  show Scalar.select (FloatOps.cmpf .oge (FloatOps.addf (agg i) (val_main_v90 (F := F) b i)) (val_main_v92 (F := F) i))
      (FloatOps.addf (agg i) (val_main_v90 (F := F) b i))
      (FloatOps.mulf (val_main_v94 (F := F) a i) (FloatOps.addf (agg i) (val_main_v90 (F := F) b i)))
    = pre (agg i) (shapeCast S1x64 b hb (idx_main_v90 i)) (shapeCast S1x1 a ha z00)
  rw [val_main_v90_apply, val_main_v89_apply, val_main_v92_apply, val_main_cst_21_apply, val_main_v94_apply,
    shapeCast_apply b hb (idx_main_v90 i) (idx_main_v89 (idx_main_v90 i)) (by
      rw [Shape.rowMajor_val_two, Shape.rowMajor_val_one]
      show (i 1).val = 0 * 64 + (i 1).val
      omega),
    shapeCast_apply a ha z00 (idx_main_v94 i) (by
      rw [Shape.rowMajor_val_two]
      show ((S_ : Shape).rowMajor (idx_main_v94 i)).val = 0 * 1 + 0
      have := ((S_ : Shape).rowMajor (idx_main_v94 i)).isLt
      have h1 : (S_ : Shape).numel = 1 := by decide
      omega)]
  rfl

/-- The host's second product read at an entry, whatever its left operand: the sum over the 128 contracted positions. -/
theorem dot2_apply (L : FVec Ideal S50000x128 .f32) (w : FVec Ideal S128x64 .f32) (i : S50000x64.Idx) :
    Host.dotGeneral dot_S50000x128_S128x64_S50000x64_1_0_0_1_n_n none L w i
      = ∑ k : Fin 128, L (lidx_main_v52 i k) * w (ridx_main_v52 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v52 i k := funext fun a => Fin.ext (by
    match a with
    | ⟨0, _⟩ => exact lhs_main_v52_0 _ _
    | ⟨1, _⟩ => exact (lhs_main_v52_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v52 i k := funext fun a => Fin.ext (by
    match a with
    | ⟨0, _⟩ => exact (rhs_main_v52_0 _ _).trans hk
    | ⟨1, _⟩ => exact rhs_main_v52_1 _ _)
  rw [el, er]

/-- The reference's second projected features are the product of `preact128` of its first aggregation with the weights. -/
theorem v52_as_preact (x0 : FVec F S50000x128 .f32) (x1 : IVec S2x800000 32) (x2 : FVec F S128x128 .f32) (x3 : FVec F S128 .f32)
    (x4 : FVec F S128x64 .f32) (x6 : FVec F S_ .f32) (hb : S128.ShapeCasts S1x128) (ha : S_.ShapeCasts S1x1) :
    val_main_v52 (F := F) x0 x1 x2 x3 x4 x6
      = Host.dotGeneral dot_S50000x128_S128x64_S50000x64_1_0_0_1_n_n none
          (preact128 (val_main_v43 (F := F) x0 x1 x2) (shapeCast S1x128 x3 hb) (shapeCast S1x1 x6 ha)) x4 := by
  rw [← act128_eq]
  rfl

/-- The reference's result is `preact64` of its second aggregation. -/
theorem v96_as_preact (x0 : FVec F S50000x128 .f32) (x1 : IVec S2x800000 32) (x2 : FVec F S128x128 .f32) (x3 : FVec F S128 .f32)
    (x4 : FVec F S128x64 .f32) (x5 : FVec F S64 .f32) (x6 : FVec F S_ .f32) (hb : S64.ShapeCasts S1x64) (ha : S_.ShapeCasts S1x1) :
    val_main_v96 (F := F) x0 x1 x2 x3 x4 x5 x6
      = preact64 (val_main_v88 (F := F) x0 x1 x2 x3 x4 x6) (shapeCast S1x64 x5 hb) (shapeCast S1x1 x6 ha) := by
  rw [← act64_eq]
  rfl

end Cert.ReferenceIdeal.Layers

end
-- ==== Proof.Lin1.lean ====
/-
  The first linear layer. The pallas_call of region 0 runs over 25 grid points; point t stages rows 2000·t … 2000·t + 1999
  of the node features x (all 128 columns) and the whole 128 × 128 weight matrix, and writes back the product of the two
  blocks (the operands are rounded to bf16 on the way into the matrix unit, which at the extended reals is the identity;
  the accumulator starts at zero). So entry (r, c) of the block written at point t is
      ∑ k : Fin 128, x (2000·t + r, k) · w (k, c),
  which is entry (2000·t + r, c) of the whole product x · w as the host's dot_general computes it: the 25 blocks are the
  restrictions of ONE function of the two arrays, they tile the 50000 rows, and so the array the region leaves is x · w.
-/
import proofs.«168347_j61607010893873_1_alg».proof.Proof.Gen.KernelIdeal.Frame
import proofs.«168347_j61607010893873_1_alg».proof.Proof.RefRead
import Idealize.ShloMosaic.Lib.Pipeline.Value
import Idealize.ShloMosaic.Lib.ValueIdx
import Idealize.ShloMosaic.PureOps.Ideal.Laws

noncomputable section

namespace Cert.KernelIdeal.Lin1

open Cert.KernelIdeal Cert.KernelIdeal.Gen Idealize.ShloMosaic Idealize.ShloMosaic.TcCoe Idealize.SL.Sem
open Idealize.ShloMosaic.Pipeline (Dat)

-- the contents of the TensorCore's buffers when the region is entered
variable (V : (c : Dev nD) → (b : Ref sig .tc) → Buf (Elt Ideal) ((c : Thread nD τ).loc b))

/-! ## The block product at an entry -/

theorem lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `j 0` of the left block at column `k`. -/
abbrev lrow (j : S2000x128.Idx) (k : Fin 128) : S2000x128.Idx := fun a => match a with
  | ⟨0, _⟩ => ⟨(j 0).val, (j 0).isLt⟩
  | ⟨1, _⟩ => ⟨k.val, k.isLt⟩
/-- Column `j 1` of the weights at row `k`. -/
abbrev rcol (j : S2000x128.Idx) (k : Fin 128) : S128x128.Idx := fun a => match a with
  | ⟨0, _⟩ => ⟨k.val, k.isLt⟩
  | ⟨1, _⟩ => ⟨(j 1).val, (j 1).isLt⟩

/-- The body's stored value at an entry: the sum over the 128 contracted positions of row times column. -/
theorem pay_apply (x0 : Vec Ideal S2000x128 .f32) (x1 : Vec Ideal S128x128 .f32) (j : S2000x128.Idx) :
    k0_pay1 x0 x1 j = ∑ k : Fin 128, x0 (lrow j k) * x1 (rcol j k) := by
  unfold k0_pay1
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## From the blocks to the array -/

theorem hz : (![0, 0] : Fin 2 → Nat) = fun _ => 0 := funext fun a => by fin_cases a <;> rfl

/-- The printed index maps over the 25 points: the row blocks of x and of the result move together, t ↦ (t, 0); the
    weights stay at block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block is some point's. -/
theorem idx_onto : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

/-- What point `t` writes back is block `t` of the whole product of the two arrays as the region finds them. -/
theorem flushed_eq (c : Dev nD) (t : Fin cfg0.N) :
    (dat0 V c).flushed 2 t = ((cfg0.win 2).blk t).view.read (Elt Ideal)
      (Cert.ReferenceIdeal.ReadP.val_main_v7 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  show k0_pay1 (iblk0 V c 0 t) (iblk0 V c 1 t) j
    = Cert.ReferenceIdeal.ReadP.val_main_v7 (F := Ideal) (V c main_arg0) (V c main_arg2) (((cfg0.win 2).blk t).view.emb j)
  refine (pay_apply _ _ j).trans ?_
  rw [Cert.ReferenceIdeal.ReadP.val_main_v7_apply]
  refine Finset.sum_congr rfl fun k _ => ?_
  have h0 : iblk0 V c 0 t (lrow j k) = V c main_arg0 (Cert.ReferenceIdeal.ReadP.lidx_main_v7 (((cfg0.win 2).blk t).view.emb j) k) := by
    show V c main_arg0 (((cfg0.win 0).blk t).view.emb (lrow j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : iblk0 V c 1 t (rcol j k) = V c main_arg2 (Cert.ReferenceIdeal.ReadP.ridx_main_v7 (((cfg0.win 2).blk t).view.emb j) k) := by
    show V c main_arg2 (((cfg0.win 1).blk t).view.emb (rcol j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- The 25 row blocks cover the array: row r lies in block r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := idx_onto ⟨(i 0).val / 2000, by omega⟩
  have q0' : win0_2.index t (0 : Fin 2) = (i 0).val / 2000 := q0
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the region leaves: the whole product x · w of the arrays it found. -/
theorem final (c : Dev nD) :
    (dat0 V c).arrAt 2 cfg0.N = Cert.ReferenceIdeal.ReadP.val_main_v7 (F := Ideal) (V c main_arg0) (V c main_arg2) :=
  (dat0 V c).arrAt_eq_of_cover 2 _ (fun t _ => flushed_eq V c t) (cover)

end Cert.KernelIdeal.Lin1

end
-- ==== Proof.Lin2.lean ====
/-
  The second linear layer, with the first activation fused in front of it. The pallas_call of region 1 runs over 25 grid
  points; point t stages rows 2000·t … 2000·t + 1999 of the aggregated [50000, 128] array, the [1, 128] bias row, the
  [1, 1] slope and the whole 128 × 64 weight matrix, adds the bias, applies the PReLU entry by entry, and writes back the
  product of the activated block with the weights (operands rounded to bf16 on the way into the matrix unit: the identity
  at the extended reals; the accumulator starts at zero). Entry (r, c) of the block written at point t is
      ∑ k : Fin 128, pre (agg (2000·t + r, k)) (bias (0, k)) slope · w (k, c),
  which is entry (2000·t + r, c) of the host's dot_general of the activated whole array with the weights: the 25 blocks
  are the restrictions of one function of the four arrays, and they tile the 50000 rows.
-/
import proofs.«168347_j61607010893873_1_alg».proof.Proof.Gen.KernelIdeal.Frame
import proofs.«168347_j61607010893873_1_alg».proof.Proof.Layers
import Idealize.ShloMosaic.Lib.Pipeline.Value
import Idealize.ShloMosaic.Lib.ValueIdx
import Idealize.ShloMosaic.PureOps.Ideal.Laws

noncomputable section

namespace Cert.KernelIdeal.Lin2

open Cert.KernelIdeal Cert.KernelIdeal.Gen Idealize.ShloMosaic Idealize.ShloMosaic.TcCoe Idealize.SL.Sem
open Idealize.ShloMosaic.Pipeline (Dat)
open Cert.ReferenceIdeal.Layers (pre z00 preact128)

-- the contents of the TensorCore's buffers when the region is entered
variable (V : (c : Dev nD) → (b : Ref sig .tc) → Buf (Elt Ideal) ((c : Thread nD τ).loc b))

/-! ## The activated block at an entry -/

/-- The bias row's entry for the column of `y`. -/
abbrev browOf (y : S2000x128.Idx) : S1x128.Idx := fun a => match a with
  | ⟨0, _⟩ => ⟨0, Nat.one_pos⟩
  | ⟨1, _⟩ => ⟨(y 1).val, (y 1).isLt⟩

/-- The body's activated block (bias added, compared with zero, slope applied, selected) at an entry. -/
theorem act_apply {F : FTy → Type} [FloatOps F] (a0 : Vec F S1x1 .f32) (x : Vec F S2000x128 .f32) (b : Vec F S1x128 .f32) (y : S2000x128.Idx) :
    select (cmpf .oge (addf (shapeCast S2000x128 x shapeCasts_S2000x128_S2000x128) (broadcastTo S2000x128 (shapeCast S1x128 b shapeCasts_S1x128_S1x128) broadcasts_S1x128_S2000x128)) (broadcast S2000x128 (Scalar.ofBits .f32 0x00000000#32)))
        (addf (shapeCast S2000x128 x shapeCasts_S2000x128_S2000x128) (broadcastTo S2000x128 (shapeCast S1x128 b shapeCasts_S1x128_S1x128) broadcasts_S1x128_S2000x128))
        (mulf (broadcast S2000x128 (extractAt ![0, 0] a0 inpos_S1x1_p0_0)) (addf (shapeCast S2000x128 x shapeCasts_S2000x128_S2000x128) (broadcastTo S2000x128 (shapeCast S1x128 b shapeCasts_S1x128_S1x128) broadcasts_S1x128_S2000x128))) y
      = pre (F := F) (x y) (b (browOf y)) (a0 z00) := by
  have hb : broadcastTo S2000x128 (shapeCast S1x128 b shapeCasts_S1x128_S1x128) broadcasts_S1x128_S2000x128 y = b (browOf y) := by
    rw [shapeCast_self]
    exact broadcastTo_apply b broadcasts_S1x128_S2000x128 y (browOf y) (fun a => match a with
      | ⟨0, _⟩ => by show 0 = if (1 : Nat) = 1 then 0 else (y 0).val; rw [if_pos rfl]
      | ⟨1, _⟩ => by show (y 1).val = if (128 : Nat) = 1 then 0 else (y 1).val; rw [if_neg (by decide)])
  have ha : extractAt ![0, 0] a0 inpos_S1x1_p0_0 = a0 z00 :=
    congrArg a0 (funext fun a => Fin.ext (by match a with | ⟨0, _⟩ => rfl | ⟨1, _⟩ => rfl))
  show Scalar.select (FloatOps.cmpf .oge (FloatOps.addf (shapeCast S2000x128 x shapeCasts_S2000x128_S2000x128 y)
        (broadcastTo S2000x128 (shapeCast S1x128 b shapeCasts_S1x128_S1x128) broadcasts_S1x128_S2000x128 y)) (Scalar.ofBits .f32 0x00000000#32))
      (FloatOps.addf (shapeCast S2000x128 x shapeCasts_S2000x128_S2000x128 y)
        (broadcastTo S2000x128 (shapeCast S1x128 b shapeCasts_S1x128_S1x128) broadcasts_S1x128_S2000x128 y))
      (FloatOps.mulf (extractAt ![0, 0] a0 inpos_S1x1_p0_0) (FloatOps.addf (shapeCast S2000x128 x shapeCasts_S2000x128_S2000x128 y)
        (broadcastTo S2000x128 (shapeCast S1x128 b shapeCasts_S1x128_S1x128) broadcasts_S1x128_S2000x128 y))) = _
  rw [hb, ha, shapeCast_self]
  rfl

/-! ## The block product at an entry -/

theorem lhs_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Row `j 0` of the activated block at column `k`. -/
abbrev lrow (j : S2000x64.Idx) (k : Fin 128) : S2000x128.Idx := fun a => match a with
  | ⟨0, _⟩ => ⟨(j 0).val, (j 0).isLt⟩
  | ⟨1, _⟩ => ⟨k.val, k.isLt⟩
/-- Column `j 1` of the weights at row `k`. -/
abbrev rcol (j : S2000x64.Idx) (k : Fin 128) : S128x64.Idx := fun a => match a with
  | ⟨0, _⟩ => ⟨k.val, k.isLt⟩
  | ⟨1, _⟩ => ⟨(j 1).val, (j 1).isLt⟩

/-- The body's stored value at an entry: the sum over the 128 contracted positions of activated row times column. -/
theorem pay_apply (a0 : Vec Ideal S1x1 .f32) (x : Vec Ideal S2000x128 .f32) (b : Vec Ideal S1x128 .f32) (w : Vec Ideal S128x64 .f32) (j : S2000x64.Idx) :
    k1_pay1 a0 x b w j = ∑ k : Fin 128, pre (F := Ideal) (x (lrow j k)) (b (browOf (lrow j k))) (a0 z00) * w (rcol j k) := by
  unfold k1_pay1
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((ValueIdx.contrEquiv1 dot_S2000x128_S128x64_S2000x64_1_0_0_1_n_n 128 rfl rfl).symm k) = rcol j k := funext fun a => Fin.ext (by
    match a with
    | ⟨0, _⟩ => exact (rhs_0 _ _).trans hk
    | ⟨1, _⟩ => exact rhs_1 _ _)
  rw [el, er]
  exact congrArg (· * w (rcol j k)) (act_apply a0 x b (lrow j k))

/-! ## From the blocks to the array -/

theorem hz : (![0, 0] : Fin 2 → Nat) = fun _ => 0 := funext fun a => by fin_cases a <;> rfl

/-- The printed index maps over the 25 points: the row blocks of the aggregated array and of the result move together,
    t ↦ (t, 0); the bias row, the slope and the weights stay at block (0, 0). -/
theorem idx_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 24 :=
  (by decide +kernel : ∀ t : Fin grid1.N, _)

/-- Every row block is some point's. -/
theorem idx_onto : ∀ q : Fin 25, ∃ t : Fin cfg1.N, win1_4.index t (0 : Fin 2) = q.val ∧ win1_4.index t (1 : Fin 2) = 0 :=
  (by decide +kernel : ∀ q : Fin 25, ∃ t : Fin grid1.N, win1_4.index t (0 : Fin 2) = q.val ∧ win1_4.index t (1 : Fin 2) = 0)

/-- The whole-array function: the host's product of the activated aggregated array with the weights. -/
abbrev whole (agg : FVec Ideal Cert.ReferenceIdeal.S50000x128 .f32) (b2d : FVec Ideal Cert.ReferenceIdeal.S1x128 .f32)
    (a2d : FVec Ideal Cert.ReferenceIdeal.Layers.S1x1 .f32) (w : FVec Ideal Cert.ReferenceIdeal.S128x64 .f32) :
    FVec Ideal Cert.ReferenceIdeal.S50000x64 .f32 :=
  Host.dotGeneral Cert.ReferenceIdeal.dot_S50000x128_S128x64_S50000x64_1_0_0_1_n_n none (preact128 (F := Ideal) agg b2d a2d) w

/-- What point `t` writes back is block `t` of that function of the four arrays as the region finds them. -/
theorem flushed_eq (c : Dev nD) (t : Fin cfg1.N) :
    (dat1 V c).flushed 4 t = ((cfg1.win 4).blk t).view.read (Elt Ideal)
      (whole (V c main_v44) (V c main_v45) (V c main_v30) (V c main_arg4)) := by
  show (cfg1.win 4).cut (grid1.coords t) ((dat1 V c).after 4 t) = _
  rw [after1_4]
  unfold out1_4
  rw [View.canon_unit_zero hz]
  simp only [View.ld_unit_zero (S := S2000x128) hz, View.ld_unit_zero (S := S1x128) hz, View.ld_unit_zero (S := S1x1) hz, View.ld_unit_zero (S := S128x64) hz]
  obtain ⟨e0, e1, e2, e3, e4, e5, e6, e7, e8, e9⟩ := idx_facts t
  funext j
  show k1_pay1 (iblk1 V c 2 t) (iblk1 V c 0 t) (iblk1 V c 1 t) (iblk1 V c 3 t) j
    = whole (V c main_v44) (V c main_v45) (V c main_v30) (V c main_arg4) (((cfg1.win 4).blk t).view.emb j)
  refine (pay_apply _ _ _ _ j).trans ?_
  refine Eq.trans ?_ (Cert.ReferenceIdeal.Layers.dot2_apply (preact128 (F := Ideal) (V c main_v44) (V c main_v45) (V c main_v30))
    (V c main_arg4) (((cfg1.win 4).blk t).view.emb j)).symm
  refine Finset.sum_congr rfl fun k _ => ?_
  show pre (F := Ideal) (iblk1 V c 0 t (lrow j k)) (iblk1 V c 1 t (browOf (lrow j k))) (iblk1 V c 2 t z00) * iblk1 V c 3 t (rcol j k)
    = pre (F := Ideal) (V c main_v44 (Cert.ReferenceIdeal.ReadP.lidx_main_v52 (((cfg1.win 4).blk t).view.emb j) k))
        (V c main_v45 (Cert.ReferenceIdeal.ReadP.idx_main_v45 (Cert.ReferenceIdeal.ReadP.lidx_main_v52 (((cfg1.win 4).blk t).view.emb j) k)))
        (V c main_v30 z00)
      * V c main_arg4 (Cert.ReferenceIdeal.ReadP.ridx_main_v52 (((cfg1.win 4).blk t).view.emb j) k)
  have h0 : iblk1 V c 0 t (lrow j k) = V c main_v44 (Cert.ReferenceIdeal.ReadP.lidx_main_v52 (((cfg1.win 4).blk t).view.emb j) k) := by
    show V c main_v44 (((cfg1.win 0).blk t).view.emb (lrow j k)) = _
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  have h1 : iblk1 V c 1 t (browOf (lrow j k)) = V c main_v45 (Cert.ReferenceIdeal.ReadP.idx_main_v45 (Cert.ReferenceIdeal.ReadP.lidx_main_v52 (((cfg1.win 4).blk t).view.emb j) k)) := by
    show V c main_v45 (((cfg1.win 1).blk t).view.emb (browOf (lrow j k))) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t z00 = V c main_v30 z00 := by
    show V c main_v30 (((cfg1.win 2).blk t).view.emb z00) = _
    refine congrArg _ (funext fun a => Fin.ext ?_)
    match a with
    | ⟨0, _⟩ => show win1_2.index t (0 : Fin 2) * 1 + 1 * 0 = 0; omega
    | ⟨1, _⟩ => show win1_2.index t (1 : Fin 2) * 1 + 1 * 0 = 0; omega
  have h3 : iblk1 V c 3 t (rcol j k) = V c main_arg4 (Cert.ReferenceIdeal.ReadP.ridx_main_v52 (((cfg1.win 4).blk t).view.emb j) k) := by
    show V c main_arg4 (((cfg1.win 3).blk t).view.emb (rcol j k)) = _
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega
  rw [h0, h1, h2, h3]

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v46).slice (win1_4.rect t)).set ↔ _
  rw [View.set_slice_whole, Rect.mem_set_unit]
  exact Iff.rfl

/-- The 25 row blocks cover the array: row r lies in block r / 2000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, q0, q1⟩ := idx_onto ⟨(i 0).val / 2000, by omega⟩
  have q0' : win1_4.index t (0 : Fin 2) = (i 0).val / 2000 := q0
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The array the region leaves: the product of the activated aggregated array with the weights. -/
theorem final (c : Dev nD) :
    (dat1 V c).arrAt 4 cfg1.N = whole (V c main_v44) (V c main_v45) (V c main_v30) (V c main_arg4) :=
  (dat1 V c).arrAt_eq_of_cover 4 _ (fun t _ => flushed_eq V c t) (cover)

end Cert.KernelIdeal.Lin2

end
-- ==== Proof.Act2.lean ====
/-
  The last stage. The pallas_call of region 2 runs over 25 grid points; point t stages rows 2000·t … 2000·t + 1999 of the
  aggregated [50000, 64] array, the [1, 64] bias row and the [1, 1] slope, and writes back, entry by entry, the bias added
  and the PReLU applied: (s + b) where s + b ≥ 0 and a · (s + b) elsewhere. Entry (r, c) of the block written at point t
  depends only on entry (2000·t + r, c) of the aggregated array, on the bias at column c and on the slope, so the 25
  blocks are the restrictions of one entry-by-entry function of the three arrays; they tile the 50000 rows.
-/
import proofs.«168347_j61607010893873_1_alg».proof.Proof.Gen.KernelIdeal.Frame
import proofs.«168347_j61607010893873_1_alg».proof.Proof.Layers
import Idealize.ShloMosaic.Lib.Pipeline.Value
import Idealize.ShloMosaic.Lib.ValueIdx

noncomputable section

namespace Cert.KernelIdeal.Act2

open Cert.KernelIdeal Cert.KernelIdeal.Gen Idealize.ShloMosaic Idealize.ShloMosaic.TcCoe Idealize.SL.Sem
open Idealize.ShloMosaic.Pipeline (Dat)
open Cert.ReferenceIdeal.Layers (pre z00 preact64)

-- the contents of the TensorCore's buffers when the region is entered
variable (V : (c : Dev nD) → (b : Ref sig .tc) → Buf (Elt Ideal) ((c : Thread nD τ).loc b))

/-! ## The body's stored value at an entry -/

/-- The bias row's entry for the column of `j`. -/
abbrev brow (j : S2000x64.Idx) : S1x64.Idx := fun a => match a with
  | ⟨0, _⟩ => ⟨0, Nat.one_pos⟩
  | ⟨1, _⟩ => ⟨(j 1).val, (j 1).isLt⟩

theorem pay_apply {F : FTy → Type} [FloatOps F] (a0 : Vec F S1x1 .f32) (x : Vec F S2000x64 .f32) (b : Vec F S1x64 .f32) (j : S2000x64.Idx) :
    k2_pay1 a0 x b j = pre (F := F) (x j) (b (brow j)) (a0 z00) := by
  unfold k2_pay1
  have hb : broadcastTo S2000x64 (shapeCast S1x64 b shapeCasts_S1x64_S1x64) broadcasts_S1x64_S2000x64 j = b (brow j) := by
    rw [shapeCast_self]
    exact broadcastTo_apply b broadcasts_S1x64_S2000x64 j (brow j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])
  have ha : extractAt ![0, 0] a0 inpos_S1x1_p0_0 = a0 z00 :=
    congrArg a0 (funext fun a => Fin.ext (by match a with | ⟨0, _⟩ => rfl | ⟨1, _⟩ => rfl))
  show Scalar.select (FloatOps.cmpf .oge (FloatOps.addf (shapeCast S2000x64 x shapeCasts_S2000x64_S2000x64 j)
        (broadcastTo S2000x64 (shapeCast S1x64 b shapeCasts_S1x64_S1x64) broadcasts_S1x64_S2000x64 j)) (Scalar.ofBits .f32 0x00000000#32))
      (FloatOps.addf (shapeCast S2000x64 x shapeCasts_S2000x64_S2000x64 j)
        (broadcastTo S2000x64 (shapeCast S1x64 b shapeCasts_S1x64_S1x64) broadcasts_S1x64_S2000x64 j))
      (FloatOps.mulf (extractAt ![0, 0] a0 inpos_S1x1_p0_0) (FloatOps.addf (shapeCast S2000x64 x shapeCasts_S2000x64_S2000x64 j)
        (broadcastTo S2000x64 (shapeCast S1x64 b shapeCasts_S1x64_S1x64) broadcasts_S1x64_S2000x64 j))) = _
  rw [hb, ha, shapeCast_self]
  rfl

/-! ## From the blocks to the array -/

theorem hz : (![0, 0] : Fin 2 → Nat) = fun _ => 0 := funext fun a => by fin_cases a <;> rfl

/-- The printed index maps over the 25 points: the row blocks of the aggregated array and of the result move together,
    t ↦ (t, 0); the bias row and the slope stay at block (0, 0). -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 24 :=
  (by decide +kernel : ∀ t : Fin grid2.N, _)

/-- Every row block is some point's. -/
theorem idx_onto : ∀ q : Fin 25, ∃ t : Fin cfg2.N, win2_3.index t (0 : Fin 2) = q.val ∧ win2_3.index t (1 : Fin 2) = 0 :=
  (by decide +kernel : ∀ q : Fin 25, ∃ t : Fin grid2.N, win2_3.index t (0 : Fin 2) = q.val ∧ win2_3.index t (1 : Fin 2) = 0)

/-- What point `t` writes back is block `t` of the activation of the three arrays as the region finds them. -/
theorem flushed_eq (c : Dev nD) (t : Fin cfg2.N) :
    (dat2 V c).flushed 3 t = ((cfg2.win 3).blk t).view.read (Elt Ideal)
      (preact64 (F := Ideal) (V c main_v59) (V c main_v60) (V c main_v30)) := by
  show (cfg2.win 3).cut (grid2.coords t) ((dat2 V c).after 3 t) = _
  rw [after2_3]
  unfold out2_3
  rw [View.canon_unit_zero hz]
  simp only [View.ld_unit_zero (S := S2000x64) hz, View.ld_unit_zero (S := S1x64) hz, View.ld_unit_zero (S := S1x1) hz]
  obtain ⟨e0, e1, e2, e3, e4, e5, e6, e7⟩ := idx_facts t
  funext j
  show k2_pay1 (iblk2 V c 2 t) (iblk2 V c 0 t) (iblk2 V c 1 t) j
    = preact64 (F := Ideal) (V c main_v59) (V c main_v60) (V c main_v30) (((cfg2.win 3).blk t).view.emb j)
  refine (pay_apply _ _ _ j).trans ?_
  show pre (F := Ideal) (iblk2 V c 0 t j) (iblk2 V c 1 t (brow j)) (iblk2 V c 2 t z00)
    = pre (F := Ideal) (V c main_v59 (((cfg2.win 3).blk t).view.emb j))
        (V c main_v60 (Cert.ReferenceIdeal.ReadP.idx_main_v90 (((cfg2.win 3).blk t).view.emb j))) (V c main_v30 z00)
  have h0 : iblk2 V c 0 t j = V c main_v59 (((cfg2.win 3).blk t).view.emb j) := by
    show V c main_v59 (((cfg2.win 0).blk t).view.emb j) = _
    refine congrArg _ (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * (j 1).val = win2_3.index t (1 : Fin 2) * 64 + 1 * (j 1).val; omega
  have h1 : iblk2 V c 1 t (brow j) = V c main_v60 (Cert.ReferenceIdeal.ReadP.idx_main_v90 (((cfg2.win 3).blk t).view.emb j)) := by
    show V c main_v60 (((cfg2.win 1).blk t).view.emb (brow j)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * (j 1).val = win2_3.index t (1 : Fin 2) * 64 + 1 * (j 1).val; omega
  have h2 : iblk2 V c 2 t z00 = V c main_v30 z00 := by
    show V c main_v30 (((cfg2.win 2).blk t).view.emb z00) = _
    refine congrArg _ (funext fun a => Fin.ext ?_)
    match a with
    | ⟨0, _⟩ => show win2_2.index t (0 : Fin 2) * 1 + 1 * 0 = 0; omega
    | ⟨1, _⟩ => show win2_2.index t (1 : Fin 2) * 1 + 1 * 0 = 0; omega
  rw [h0, h1, h2]

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v61).slice (win2_3.rect t)).set ↔ _
  rw [View.set_slice_whole, Rect.mem_set_unit]
  exact Iff.rfl

/-- The 25 row blocks cover the array: row r lies in block r / 2000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, q0, q1⟩ := idx_onto ⟨(i 0).val / 2000, by omega⟩
  have q0' : win2_3.index t (0 : Fin 2) = (i 0).val / 2000 := q0
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- The array the region leaves: the activation, entry by entry, of the arrays it found. -/
theorem final (c : Dev nD) :
    (dat2 V c).arrAt 3 cfg2.N = preact64 (F := Ideal) (V c main_v59) (V c main_v60) (V c main_v30) :=
  (dat2 V c).arrAt_eq_of_cover 3 _ (fun t _ => flushed_eq V c t) (cover)

end Cert.KernelIdeal.Act2

end
-- ==== Proof.Stretch.lean ====
/-
  The host operations between the regions, read as functions. Each stretch of @main's host operations takes the
  TensorCore's buffer contents `X` at its start to the contents at its end; a buffer an operation of the stretch writes
  holds that operation's function of the contents of its operands, every other buffer what it held. Read this way:
  before the first region the program builds, from the edge list alone, the source and destination index vectors (each
  edge list row followed by the self loops 0 … 49999) and the per-edge normalisation (the product of the inverse square
  roots of the two end points' degrees), and reshapes the slope to [1, 1]; between regions it gathers the rows of the
  features at the sources, scales them by the normalisation, and sums them into the destinations; and it reshapes each
  bias to a row. These are, operation by operation, the reference's own stages of the same arrays.
-/
import proofs.«168347_j61607010893873_1_alg».proof.Proof.Gen.KernelIdeal.Launch
import proofs.«168347_j61607010893873_1_alg».proof.Proof.RefRead
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v30 val_main_v75 val_main_v7 val_main_v43 val_main_v52 val_main_v88)

variable {F : FTy → Type} [FloatOps F]
variable (X : Valuation τ sig (Elt F))

/-! ## Before the first region -/

/-- The contents after the three stretches that precede the first region. -/
abbrev start (X : Valuation τ sig (Elt F)) : Valuation τ sig (Elt F) :=
  StableHlo.after hostOps0_2 (StableHlo.after hostOps0_1 (StableHlo.after hostOps0 X))

/-- The source indices: the edge list's first row, then the self loops. -/
theorem start_src : start X (Proc.devRef .tc main_v3) = val_main_v3 (F := F) (X (Proc.devRef .tc main_arg1)) := by
  after_results_simp <;> rfl
/-- The destination indices: the edge list's second row, then the self loops. -/
theorem start_dst : start X (Proc.devRef .tc main_v6) = val_main_v6 (F := F) (X (Proc.devRef .tc main_arg1)) := by
  after_results_simp <;> rfl
/-- The per-edge normalisation. -/
theorem start_norm : start X (Proc.devRef .tc main_v29) = val_main_v30 (F := F) (X (Proc.devRef .tc main_arg1)) := by
  after_results_simp <;> rfl
/-- The slope as a [1, 1] array. -/
theorem start_slope : start X (Proc.devRef .tc main_v30) = shapeCast S1x1 (X (Proc.devRef .tc main_arg6)) shapeCasts_S_S1x1 := by
  after_results_simp <;> rfl
theorem start_arg0 : start X (Proc.devRef .tc main_arg0) = X (Proc.devRef .tc main_arg0) := by after_results_simp <;> rfl
theorem start_arg2 : start X (Proc.devRef .tc main_arg2) = X (Proc.devRef .tc main_arg2) := by after_results_simp <;> rfl
theorem start_arg3 : start X (Proc.devRef .tc main_arg3) = X (Proc.devRef .tc main_arg3) := by after_results_simp <;> rfl
theorem start_arg4 : start X (Proc.devRef .tc main_arg4) = X (Proc.devRef .tc main_arg4) := by after_results_simp <;> rfl
theorem start_arg5 : start X (Proc.devRef .tc main_arg5) = X (Proc.devRef .tc main_arg5) := by after_results_simp <;> rfl

/-! ## Between the first and the second region -/

/-- The first aggregation: the rows of the projected features gathered at the sources, scaled, summed into the
    destinations — the reference's own aggregation of the same projected features. -/
theorem mid_agg (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F))
    (h31 : X (Proc.devRef .tc main_v31) = val_main_v7 (F := F) x0 x2)
    (h3 : X (Proc.devRef .tc main_v3) = val_main_v3 (F := F) x1)
    (h6 : X (Proc.devRef .tc main_v6) = val_main_v6 (F := F) x1)
    (h29 : X (Proc.devRef .tc main_v29) = val_main_v30 (F := F) x1) :
    StableHlo.after hostOps1 X (Proc.devRef .tc main_v44) = val_main_v43 (F := F) x0 x1 x2 := by
  after_results_simp
  rw [h31, h3, h6, h29]
  rfl
/-- The first bias as a [1, 128] row. -/
theorem mid_bias : StableHlo.after hostOps1 X (Proc.devRef .tc main_v45) = shapeCast S1x128 (X (Proc.devRef .tc main_arg3)) shapeCasts_S128_S1x128 := by
  after_results_simp <;> rfl
theorem mid_src : StableHlo.after hostOps1 X (Proc.devRef .tc main_v3) = X (Proc.devRef .tc main_v3) := by after_results_simp <;> rfl
theorem mid_dst : StableHlo.after hostOps1 X (Proc.devRef .tc main_v6) = X (Proc.devRef .tc main_v6) := by after_results_simp <;> rfl
theorem mid_norm : StableHlo.after hostOps1 X (Proc.devRef .tc main_v29) = X (Proc.devRef .tc main_v29) := by after_results_simp <;> rfl
theorem mid_slope : StableHlo.after hostOps1 X (Proc.devRef .tc main_v30) = X (Proc.devRef .tc main_v30) := by after_results_simp <;> rfl
theorem mid_arg4 : StableHlo.after hostOps1 X (Proc.devRef .tc main_arg4) = X (Proc.devRef .tc main_arg4) := by after_results_simp <;> rfl
theorem mid_arg5 : StableHlo.after hostOps1 X (Proc.devRef .tc main_arg5) = X (Proc.devRef .tc main_arg5) := by after_results_simp <;> rfl

/-! ## Between the second and the third region -/

/-- The reference computes the normalisation a second time for its second layer: the same operations of the same
    edge list. -/
theorem norm_again (x1 : (⟨Cert.ReferenceIdeal.S2x800000, .i32⟩ : BufTy).Contents (Elt F)) :
    val_main_v75 (F := F) x1 = val_main_v30 (F := F) x1 := rfl

/-- The second aggregation, of the second layer's projected features. -/
theorem last_agg (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x64, .f32⟩ : BufTy).Contents (Elt F)) (x6 : (⟨Cert.ReferenceIdeal.S_, .f32⟩ : BufTy).Contents (Elt F))
    (h46 : X (Proc.devRef .tc main_v46) = val_main_v52 (F := F) x0 x1 x2 x3 x4 x6)
    (h3 : X (Proc.devRef .tc main_v3) = val_main_v3 (F := F) x1)
    (h6 : X (Proc.devRef .tc main_v6) = val_main_v6 (F := F) x1)
    (h29 : X (Proc.devRef .tc main_v29) = val_main_v30 (F := F) x1) :
    StableHlo.after hostOps2 X (Proc.devRef .tc main_v59) = val_main_v88 (F := F) x0 x1 x2 x3 x4 x6 := by
  after_results_simp
  rw [h46, h3, h6, h29, ← norm_again]
  rfl
/-- The second bias as a [1, 64] row. -/
theorem last_bias : StableHlo.after hostOps2 X (Proc.devRef .tc main_v60) = shapeCast S1x64 (X (Proc.devRef .tc main_arg5)) shapeCasts_S64_S1x64 := by
  after_results_simp <;> rfl
theorem last_slope : StableHlo.after hostOps2 X (Proc.devRef .tc main_v30) = X (Proc.devRef .tc main_v30) := by after_results_simp <;> rfl

end Cert.KernelIdeal.Stretch

end
-- ==== Proof.Whole.lean ====
/-
  The idealized kernel's result as ONE function of its arguments: the reference's own last stage.
  The buffer contents at the program's boundaries are walked from the launch to the end. Before the first region the
  host operations build the source and destination indices and the normalisation from the edge list; region 0 leaves
  x · W1; the next stretch aggregates it over the graph (gather at the sources, scale, sum into the destinations) and
  reshapes the first bias; region 1 leaves PReLU(aggregate + b1) · W2; the next stretch aggregates that and reshapes the
  second bias; region 2 leaves PReLU(aggregate + b2). Each of these is, stage for stage, what the reference computes:
  its two dot_generals, its two aggregations, and its bias-and-PReLU selects.
-/
import proofs.«168347_j61607010893873_1_alg».proof.Proof.Gen.KernelIdeal.Frame
import proofs.«168347_j61607010893873_1_alg».proof.Proof.RefRead
import proofs.«168347_j61607010893873_1_alg».proof.Proof.Layers
import proofs.«168347_j61607010893873_1_alg».proof.Proof.Lin1
import proofs.«168347_j61607010893873_1_alg».proof.Proof.Lin2
import proofs.«168347_j61607010893873_1_alg».proof.Proof.Act2
import proofs.«168347_j61607010893873_1_alg».proof.Proof.Stretch

noncomputable section

namespace Cert.KernelIdeal.Whole

open Cert.KernelIdeal Cert.KernelIdeal.Gen Idealize.ShloMosaic Idealize.ShloMosaic.TcCoe Idealize.SL.Sem
open Cert.ReferenceIdeal.ReadP (val_main_v3 val_main_v6 val_main_v30 val_main_v7 val_main_v43 val_main_v52 val_main_v88 val_main_v96)
open Cert.ReferenceIdeal.Layers (preact128 preact64 v52_as_preact v96_as_preact)

variable (m : (ℓ : Loc nD τ sig) → Buf (Elt Ideal) ℓ) (ρ : Dev nD → PrngReg) (c : Dev nD)

/-! ## The launch memory at the arguments -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-! ## At the first region's entry -/

theorem src3 : W3 m ρ c (Proc.devRef .tc main_v3) = val_main_v3 (F := Ideal) (a1 m c) := Stretch.start_src (W0 m ρ c)
theorem dst3 : W3 m ρ c (Proc.devRef .tc main_v6) = val_main_v6 (F := Ideal) (a1 m c) := Stretch.start_dst (W0 m ρ c)
theorem norm3 : W3 m ρ c (Proc.devRef .tc main_v29) = val_main_v30 (F := Ideal) (a1 m c) := Stretch.start_norm (W0 m ρ c)
theorem slope3 : W3 m ρ c (Proc.devRef .tc main_v30) = shapeCast S1x1 (a6 m c) shapeCasts_S_S1x1 := Stretch.start_slope (W0 m ρ c)
theorem x3 : W3 m ρ c (Proc.devRef .tc main_arg0) = a0 m c := Stretch.start_arg0 (W0 m ρ c)
theorem w13 : W3 m ρ c (Proc.devRef .tc main_arg2) = a2 m c := Stretch.start_arg2 (W0 m ρ c)
theorem b13 : W3 m ρ c (Proc.devRef .tc main_arg3) = a3 m c := Stretch.start_arg3 (W0 m ρ c)
theorem w23 : W3 m ρ c (Proc.devRef .tc main_arg4) = a4 m c := Stretch.start_arg4 (W0 m ρ c)
theorem b23 : W3 m ρ c (Proc.devRef .tc main_arg5) = a5 m c := Stretch.start_arg5 (W0 m ρ c)

/-! ## At the first region's exit: the projected features, everything else as entered -/

theorem lin4 : W4 m ρ c (Proc.devRef .tc main_v31) = val_main_v7 (F := Ideal) (a0 m c) (a2 m c) := by
  refine (W4_arr m ρ c 2).trans ((Lin1.final (V3 m ρ) c).trans ?_)
  show val_main_v7 (F := Ideal) (W3 m ρ c (Proc.devRef .tc main_arg0)) (W3 m ρ c (Proc.devRef .tc main_arg2)) = _
  rw [x3, w13]
theorem src4 : W4 m ρ c (Proc.devRef .tc main_v3) = val_main_v3 (F := Ideal) (a1 m c) := (W4_of_ne m ρ c main_v3 (by decide)).trans (src3 m ρ c)
theorem dst4 : W4 m ρ c (Proc.devRef .tc main_v6) = val_main_v6 (F := Ideal) (a1 m c) := (W4_of_ne m ρ c main_v6 (by decide)).trans (dst3 m ρ c)
theorem norm4 : W4 m ρ c (Proc.devRef .tc main_v29) = val_main_v30 (F := Ideal) (a1 m c) := (W4_of_ne m ρ c main_v29 (by decide)).trans (norm3 m ρ c)
theorem slope4 : W4 m ρ c (Proc.devRef .tc main_v30) = shapeCast S1x1 (a6 m c) shapeCasts_S_S1x1 := (W4_of_ne m ρ c main_v30 (by decide)).trans (slope3 m ρ c)
theorem b14 : W4 m ρ c (Proc.devRef .tc main_arg3) = a3 m c := (W4_of_ne m ρ c main_arg3 (by decide)).trans (b13 m ρ c)
theorem w24 : W4 m ρ c (Proc.devRef .tc main_arg4) = a4 m c := (W4_of_ne m ρ c main_arg4 (by decide)).trans (w23 m ρ c)
theorem b24 : W4 m ρ c (Proc.devRef .tc main_arg5) = a5 m c := (W4_of_ne m ρ c main_arg5 (by decide)).trans (b23 m ρ c)

/-! ## At the second region's entry: the first aggregation and the first bias as a row -/

theorem agg5 : W5 m ρ c (Proc.devRef .tc main_v44) = val_main_v43 (F := Ideal) (a0 m c) (a1 m c) (a2 m c) :=
  Stretch.mid_agg (W4 m ρ c) (a0 m c) (a1 m c) (a2 m c) (lin4 m ρ c) (src4 m ρ c) (dst4 m ρ c) (norm4 m ρ c)
theorem bias5 : W5 m ρ c (Proc.devRef .tc main_v45) = shapeCast S1x128 (a3 m c) shapeCasts_S128_S1x128 :=
  (Stretch.mid_bias (W4 m ρ c)).trans (by rw [b14])
theorem src5 : W5 m ρ c (Proc.devRef .tc main_v3) = val_main_v3 (F := Ideal) (a1 m c) := (Stretch.mid_src (W4 m ρ c)).trans (src4 m ρ c)
theorem dst5 : W5 m ρ c (Proc.devRef .tc main_v6) = val_main_v6 (F := Ideal) (a1 m c) := (Stretch.mid_dst (W4 m ρ c)).trans (dst4 m ρ c)
theorem norm5 : W5 m ρ c (Proc.devRef .tc main_v29) = val_main_v30 (F := Ideal) (a1 m c) := (Stretch.mid_norm (W4 m ρ c)).trans (norm4 m ρ c)
theorem slope5 : W5 m ρ c (Proc.devRef .tc main_v30) = shapeCast S1x1 (a6 m c) shapeCasts_S_S1x1 := (Stretch.mid_slope (W4 m ρ c)).trans (slope4 m ρ c)
theorem w25 : W5 m ρ c (Proc.devRef .tc main_arg4) = a4 m c := (Stretch.mid_arg4 (W4 m ρ c)).trans (w24 m ρ c)
theorem b25 : W5 m ρ c (Proc.devRef .tc main_arg5) = a5 m c := (Stretch.mid_arg5 (W4 m ρ c)).trans (b24 m ρ c)

/-! ## At the second region's exit: the second layer's projected features -/

theorem lin6 : W6 m ρ c (Proc.devRef .tc main_v46) = val_main_v52 (F := Ideal) (a0 m c) (a1 m c) (a2 m c) (a3 m c) (a4 m c) (a6 m c) := by
  refine (W6_arr m ρ c 4).trans ((Lin2.final (V5 m ρ) c).trans ?_)
  show Lin2.whole (W5 m ρ c (Proc.devRef .tc main_v44)) (W5 m ρ c (Proc.devRef .tc main_v45)) (W5 m ρ c (Proc.devRef .tc main_v30)) (W5 m ρ c (Proc.devRef .tc main_arg4)) = _
  rw [agg5, bias5, slope5, w25]
  exact (v52_as_preact (F := Ideal) (a0 m c) (a1 m c) (a2 m c) (a3 m c) (a4 m c) (a6 m c) shapeCasts_S128_S1x128 shapeCasts_S_S1x1).symm
theorem src6 : W6 m ρ c (Proc.devRef .tc main_v3) = val_main_v3 (F := Ideal) (a1 m c) := (W6_of_ne m ρ c main_v3 (by decide)).trans (src5 m ρ c)
theorem dst6 : W6 m ρ c (Proc.devRef .tc main_v6) = val_main_v6 (F := Ideal) (a1 m c) := (W6_of_ne m ρ c main_v6 (by decide)).trans (dst5 m ρ c)
theorem norm6 : W6 m ρ c (Proc.devRef .tc main_v29) = val_main_v30 (F := Ideal) (a1 m c) := (W6_of_ne m ρ c main_v29 (by decide)).trans (norm5 m ρ c)
theorem b26 : W6 m ρ c (Proc.devRef .tc main_arg5) = a5 m c := (W6_of_ne m ρ c main_arg5 (by decide)).trans (b25 m ρ c)

/-- The slope's [1, 1] array is an input window of region 1: the region stages it and never writes it back. -/
theorem slope6 : W6 m ρ c (Proc.devRef .tc main_v30) = shapeCast S1x1 (a6 m c) shapeCasts_S_S1x1 :=
  (W6_arr m ρ c 2).trans (((dat1 (V5 m ρ) c).arrAt_in 2 rfl _).trans ((A_eq1 (V5 m ρ) c 2).trans (slope5 m ρ c)))

/-! ## At the third region's entry: the second aggregation and the second bias as a row -/

theorem agg7 : W7 m ρ c (Proc.devRef .tc main_v59) = val_main_v88 (F := Ideal) (a0 m c) (a1 m c) (a2 m c) (a3 m c) (a4 m c) (a6 m c) :=
  Stretch.last_agg (W6 m ρ c) (a0 m c) (a1 m c) (a2 m c) (a3 m c) (a4 m c) (a6 m c) (lin6 m ρ c) (src6 m ρ c) (dst6 m ρ c) (norm6 m ρ c)
theorem bias7 : W7 m ρ c (Proc.devRef .tc main_v60) = shapeCast S1x64 (a5 m c) shapeCasts_S64_S1x64 :=
  (Stretch.last_bias (W6 m ρ c)).trans (by rw [b26])
theorem slope7 : W7 m ρ c (Proc.devRef .tc main_v30) = shapeCast S1x1 (a6 m c) shapeCasts_S_S1x1 := (Stretch.last_slope (W6 m ρ c)).trans (slope6 m ρ c)

/-! ## At the end -/

/-- The result buffer holds the reference's last stage of the launch memory at the seven arguments. -/
theorem result : W8 m ρ c (Proc.devRef .tc main_v61)
    = val_main_v96 (F := Ideal) (a0 m c) (a1 m c) (a2 m c) (a3 m c) (a4 m c) (a5 m c) (a6 m c) := by
  refine (W8_arr m ρ c 3).trans ((Act2.final (V7 m ρ) c).trans ?_)
  show preact64 (F := Ideal) (W7 m ρ c (Proc.devRef .tc main_v59)) (W7 m ρ c (Proc.devRef .tc main_v60)) (W7 m ρ c (Proc.devRef .tc main_v30)) = _
  rw [agg7, bias7, slope7]
  exact (v96_as_preact (F := Ideal) (a0 m c) (a1 m c) (a2 m c) (a3 m c) (a4 m c) (a5 m c) (a6 m c) shapeCasts_S64_S1x64 shapeCasts_S_S1x1).symm

end Cert.KernelIdeal.Whole

end
-- ==== Proof.lean ====
/-
  The certificate of the two-layer graph convolution network. The kernel computes the two linear projections (and the
  two bias-and-PReLU stages, the first fused in front of the second projection) in three pallas_calls over 25 row tiles
  each, and leaves the graph aggregation (gather at the edge sources, scale by the symmetric normalisation, sum into the
  edge destinations) to host operations between them; the reference is the same network written with whole-array jnp
  operations. At the extended reals the rounding to bf16 in front of the matrix unit is the identity, a tile of a matrix
  product is the restriction of the whole product to the tile's rows, and the kernel's [1, n] bias rows and [1, 1] slope
  are reshapes of the reference's rank-1 biases and scalar slope: the two programs compute the same function of their
  arguments, stage for stage, and no law of arithmetic beyond that is used (so the finiteness of the inputs is never
  opened). The three frames are the programs' runs with the results dropped; the idealization rewrote nothing.
-/
import proofs.«168347_j61607010893873_1_alg».proof.Defs
import proofs.«168347_j61607010893873_1_alg».proof.Proof.Gen.Kernel
import proofs.«168347_j61607010893873_1_alg».proof.Proof.Gen.Kernel.Skeleton
import proofs.«168347_j61607010893873_1_alg».proof.Proof.Gen.Kernel.Launch
import proofs.«168347_j61607010893873_1_alg».proof.Proof.Gen.Kernel.Points
import proofs.«168347_j61607010893873_1_alg».proof.Proof.Gen.Kernel.Frame
import proofs.«168347_j61607010893873_1_alg».proof.Proof.Gen.KernelIdeal
import proofs.«168347_j61607010893873_1_alg».proof.Proof.Gen.KernelIdeal.Skeleton
import proofs.«168347_j61607010893873_1_alg».proof.Proof.Gen.KernelIdeal.Launch
import proofs.«168347_j61607010893873_1_alg».proof.Proof.Gen.KernelIdeal.Points
import proofs.«168347_j61607010893873_1_alg».proof.Proof.Gen.KernelIdeal.Frame
import proofs.«168347_j61607010893873_1_alg».proof.Proof.Gen.ReferenceIdeal
import proofs.«168347_j61607010893873_1_alg».proof.Proof.Gen.Pre_finite_inputs
import proofs.«168347_j61607010893873_1_alg».proof.Proof.RefRun
import proofs.«168347_j61607010893873_1_alg».proof.Proof.RefRead
import proofs.«168347_j61607010893873_1_alg».proof.Proof.KRun
import proofs.«168347_j61607010893873_1_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Whole.result m ρ c), (h c).2⟩)
    (Cert.KernelIdeal.KRun.run_value (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v96_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
